-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3x4096 : Shape := ⟨3, ![4096, 3, 4096]⟩
abbrev S_ : Shape := ⟨0, ![]⟩

class Facts : Prop where
  bcast_S_S4096x3x4096 : S_.BroadcastsInDim S4096x3x4096 (![] : Fin 0 → Fin S4096x3x4096.rank)
  reducesTo_S4096x3x4096_S_d0_1_2 : S4096x3x4096.ReducesTo [0, 1, 2] S_
  h_S_ : 0 < S_.numel

variable [Facts]

def fn {F : FTy → Type} [FloatOps F] (main_arg0 : FVec F S4096x3x4096 .f32) : IVec S_ 1 :=
  let main_v0 : FVec F S4096x3x4096 .f32 := Host.absf main_arg0
  let main_cst : FVec F S_ .f32 := constant S_ .f32 0x7F800000#32
  let main_v1 : FVec F S4096x3x4096 .f32 := broadcastInDim S4096x3x4096 ![] bcast_S_S4096x3x4096 main_cst
  let main_v2 : IVec S4096x3x4096 1 := cmpf .olt main_v0 main_v1
  let main_c : IVec S_ 1 := constantI S_ 1 1#1
  let main_v3 : IVec S_ 1 := (fun x v => Host.reduce IntOp.andi x v reducesTo_S4096x3x4096_S_d0_1_2 h_S_) main_v2 main_c
  main_v3
-- ==== Kernel.lean ====
abbrev S4096x3x4096 : Shape := ⟨3, ![4096, 3, 4096]⟩
abbrev S128x3x4096 : Shape := ⟨3, ![128, 3, 4096]⟩
abbrev S128x3x1 : Shape := ⟨3, ![128, 3, 1]⟩
abbrev S128x3x4095 : Shape := ⟨3, ![128, 3, 4095]⟩
abbrev S128x1x4096 : Shape := ⟨3, ![128, 1, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4096x3x4096, .f32⟩
  | .hbm, ⟨1, _⟩ => ⟨S4096x3x4096, .f32⟩
  | .local _ .vmem, ⟨0, _⟩ => ⟨S128x3x4096, .f32⟩
  | .local _ .vmem, ⟨1, _⟩ => ⟨S128x3x4096, .f32⟩
  | .local _ .vmem, ⟨2, _⟩ => ⟨S128x3x4096, .f32⟩
  | .local _ .vmem, ⟨3, _⟩ => ⟨S128x3x4096, .f32⟩
  | _, _ => ⟨S4096x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x3x4096_S128x3x4096_0_0_0 : ∀ a, (![0, 0, 0] : Fin 3 → Nat) a + S128x3x4096.size a ≤ S128x3x4096.size a
  h_S128x3x4096 : 0 < S128x3x4096.numel
  slices_S128x3x4096_o0_0_0_S128x3x1 : S128x3x4096.Slices ![0, 0, 0] S128x3x1
  slices_S128x3x4096_o0_0_0_S128x3x4095 : S128x3x4096.Slices ![0, 0, 0] S128x3x4095
  concatenates_S128x3x1_S128x3x4095_S128x3x4096_d2 : Shape.Concatenates [S128x3x1, S128x3x4095] S128x3x4096 2
  slices_S128x3x4096_o0_0_1_S128x3x4095 : S128x3x4096.Slices ![0, 0, 1] S128x3x4095
  slices_S128x3x4096_o0_0_4095_S128x3x1 : S128x3x4096.Slices ![0, 0, 4095] S128x3x1
  concatenates_S128x3x4095_S128x3x1_S128x3x4096_d2 : Shape.Concatenates [S128x3x4095, S128x3x1] S128x3x4096 2
  slices_S128x3x4096_o0_0_0_S128x1x4096 : S128x3x4096.Slices ![0, 0, 0] S128x1x4096
  slices_S128x3x4096_o0_1_0_S128x1x4096 : S128x3x4096.Slices ![0, 1, 0] S128x1x4096
  slices_S128x3x4096_o0_2_0_S128x1x4096 : S128x3x4096.Slices ![0, 2, 0] S128x1x4096
  concatenates_S128x1x4096_S128x1x4096_S128x1x4096_S128x3x4096_d1 : Shape.Concatenates [S128x1x4096, S128x1x4096, S128x1x4096] S128x3x4096 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3x4096.size a ≤ S4096x3x4096.size a
  hwx0_0 : ∀ i : grid0.Coords, EltTy.bits .f32 = 32 ∨ (Rect.block (s := S4096x3x4096) S128x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3x4096.size a ≤ S4096x3x4096.size a
  hwx0_1 : ∀ i : grid0.Coords, EltTy.bits .f32 = 32 ∨ (Rect.block (s := S4096x3x4096) S128x3x4096.size (cc0_transform_1 i) (hinb0_1 i)).WholeWords (EltTy.packing .f32)

variable [Facts₀]

abbrev win0_0 : Pipeline.Window sig grid0 :=
  Pipeline.Window.ofSpec (Memref.whole main_arg0) S128x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x3x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x3x4096 : Shape := ⟨3, ![4096, 3, 4096]⟩
abbrev S4096x3x1 : Shape := ⟨3, ![4096, 3, 1]⟩
abbrev S4096x3x4095 : Shape := ⟨3, ![4096, 3, 4095]⟩
abbrev S4096x1x4096 : Shape := ⟨3, ![4096, 1, 4096]⟩
abbrev S_ : Shape := ⟨0, ![]⟩

abbrev nBuf : Space → Nat
  | .hbm => 251
  | .vmem => 0
  | .smem => 0
  | _ => 0

abbrev hbmTy0_0 (i : Nat) : BufTy := match i % 128 with
  | 0 => ⟨S4096x3x4096, .f32⟩
  | 1 => ⟨S4096x3x1, .f32⟩
  | 2 => ⟨S4096x3x4095, .f32⟩
  | 3 => ⟨S4096x3x4096, .f32⟩
  | 4 => ⟨S4096x3x4095, .f32⟩
  | 5 => ⟨S4096x3x1, .f32⟩
  | 6 => ⟨S4096x3x4096, .f32⟩
  | 7 => ⟨S4096x1x4096, .f32⟩
  | 8 => ⟨S4096x1x4096, .f32⟩
  | 9 => ⟨S4096x1x4096, .f32⟩
  | 10 => ⟨S_, .f32⟩
  | 11 => ⟨S4096x1x4096, .f32⟩
  | 12 => ⟨S4096x1x4096, .f32⟩
  | 13 => ⟨S4096x1x4096, .f32⟩
  | 14 => ⟨S4096x1x4096, .f32⟩
  | 15 => ⟨S4096x1x4096, .f32⟩
  | 16 => ⟨S_, .f32⟩
  | 17 => ⟨S4096x1x4096, .f32⟩
  | 18 => ⟨S4096x1x4096, .f32⟩
  | 19 => ⟨S4096x1x4096, .f32⟩
  | 20 => ⟨S4096x1x4096, .f32⟩
  | 21 => ⟨S4096x1x4096, .f32⟩
  | 22 => ⟨S4096x1x4096, .f32⟩
  | 23 => ⟨S4096x1x4096, .f32⟩
  | 24 => ⟨S_, .f32⟩
  | 25 => ⟨S4096x1x4096, .f32⟩
  | 26 => ⟨S4096x1x4096, .f32⟩
  | 27 => ⟨S4096x1x4096, .f32⟩
  | 28 => ⟨S4096x1x4096, .f32⟩
  | 29 => ⟨S4096x1x4096, .f32⟩
  | 30 => ⟨S_, .f32⟩
  | 31 => ⟨S4096x1x4096, .f32⟩
  | 32 => ⟨S4096x1x4096, .f32⟩
  | 33 => ⟨S4096x1x4096, .f32⟩
  | 34 => ⟨S4096x1x4096, .f32⟩
  | 35 => ⟨S4096x1x4096, .f32⟩
  | 36 => ⟨S4096x1x4096, .f32⟩
  | 37 => ⟨S4096x1x4096, .f32⟩
  | 38 => ⟨S_, .f32⟩
  | 39 => ⟨S4096x1x4096, .f32⟩
  | 40 => ⟨S4096x1x4096, .f32⟩
  | 41 => ⟨S4096x1x4096, .f32⟩
  | 42 => ⟨S4096x1x4096, .f32⟩
  | 43 => ⟨S4096x1x4096, .f32⟩
  | 44 => ⟨S_, .f32⟩
  | 45 => ⟨S4096x1x4096, .f32⟩
  | 46 => ⟨S4096x1x4096, .f32⟩
  | 47 => ⟨S4096x1x4096, .f32⟩
  | 48 => ⟨S4096x1x4096, .f32⟩
  | 49 => ⟨S4096x1x4096, .f32⟩
  | 50 => ⟨S4096x1x4096, .f32⟩
  | 51 => ⟨S4096x1x4096, .f32⟩
  | 52 => ⟨S4096x1x4096, .f32⟩
  | 53 => ⟨S4096x1x4096, .f32⟩
  | 54 => ⟨S4096x1x4096, .f32⟩
  | 55 => ⟨S4096x1x4096, .f32⟩
  | 56 => ⟨S4096x1x4096, .f32⟩
  | 57 => ⟨S4096x1x4096, .f32⟩
  | 58 => ⟨S4096x1x4096, .f32⟩
  | 59 => ⟨S4096x1x4096, .f32⟩
  | 60 => ⟨S4096x1x4096, .f32⟩
  | 61 => ⟨S_, .f32⟩
  | 62 => ⟨S4096x1x4096, .f32⟩
  | 63 => ⟨S4096x1x4096, .f32⟩
  | 64 => ⟨S4096x1x4096, .f32⟩
  | 65 => ⟨S4096x1x4096, .f32⟩
  | 66 => ⟨S_, .f32⟩
  | 67 => ⟨S4096x1x4096, .f32⟩
  | 68 => ⟨S4096x1x4096, .f32⟩
  | 69 => ⟨S4096x1x4096, .f32⟩
  | 70 => ⟨S4096x1x4096, .f32⟩
  | 71 => ⟨S4096x1x4096, .f32⟩
  | 72 => ⟨S4096x1x4096, .f32⟩
  | 73 => ⟨S4096x1x4096, .f32⟩
  | 74 => ⟨S4096x1x4096, .f32⟩
  | 75 => ⟨S4096x1x4096, .f32⟩
  | 76 => ⟨S4096x1x4096, .f32⟩
  | 77 => ⟨S4096x1x4096, .f32⟩
  | 78 => ⟨S4096x1x4096, .f32⟩
  | 79 => ⟨S_, .f32⟩
  | 80 => ⟨S4096x1x4096, .f32⟩
  | 81 => ⟨S4096x1x4096, .f32⟩
  | 82 => ⟨S4096x1x4096, .f32⟩
  | 83 => ⟨S4096x1x4096, .f32⟩
  | 84 => ⟨S_, .f32⟩
  | 85 => ⟨S4096x1x4096, .f32⟩
  | 86 => ⟨S4096x1x4096, .f32⟩
  | 87 => ⟨S4096x1x4096, .f32⟩
  | 88 => ⟨S4096x3x4096, .f32⟩
  | 89 => ⟨S4096x1x4096, .f32⟩
  | 90 => ⟨S_, .f32⟩
  | 91 => ⟨S4096x1x4096, .f32⟩
  | 92 => ⟨S4096x1x4096, .f32⟩
  | 93 => ⟨S_, .f32⟩
  | 94 => ⟨S4096x1x4096, .f32⟩
  | 95 => ⟨S4096x1x4096, .f32⟩
  | 96 => ⟨S4096x1x4096, .f32⟩
  | 97 => ⟨S_, .f32⟩
  | 98 => ⟨S4096x1x4096, .f32⟩
  | 99 => ⟨S4096x1x4096, .f32⟩
  | 100 => ⟨S4096x1x4096, .f32⟩
  | 101 => ⟨S4096x1x4096, .f32⟩
  | 102 => ⟨S4096x1x4096, .f32⟩
  | 103 => ⟨S4096x1x4096, .f32⟩
  | 104 => ⟨S4096x1x4096, .f32⟩
  | 105 => ⟨S4096x1x4096, .f32⟩
  | 106 => ⟨S_, .f32⟩
  | 107 => ⟨S4096x1x4096, .f32⟩
  | 108 => ⟨S4096x1x4096, .f32⟩
  | 109 => ⟨S4096x1x4096, .f32⟩
  | 110 => ⟨S4096x1x4096, .f32⟩
  | 111 => ⟨S4096x1x4096, .f32⟩
  | 112 => ⟨S4096x1x4096, .f32⟩
  | 113 => ⟨S4096x1x4096, .f32⟩
  | 114 => ⟨S4096x1x4096, .f32⟩
  | 115 => ⟨S4096x1x4096, .f32⟩
  | 116 => ⟨S4096x1x4096, .f32⟩
  | 117 => ⟨S4096x1x4096, .f32⟩
  | 118 => ⟨S4096x1x4096, .f32⟩
  | 119 => ⟨S4096x1x4096, .f32⟩
  | 120 => ⟨S_, .f32⟩
  | 121 => ⟨S4096x1x4096, .f32⟩
  | 122 => ⟨S4096x1x4096, .f32⟩
  | 123 => ⟨S4096x1x4096, .f32⟩
  | 124 => ⟨S_, .f32⟩
  | 125 => ⟨S4096x1x4096, .f32⟩
  | 126 => ⟨S4096x1x4096, .f32⟩
  | 127 => ⟨S4096x1x4096, .f32⟩
  | _ => ⟨S4096x3x4096, .f32⟩

abbrev hbmTy0_1 (i : Nat) : BufTy := match i % 128 with
  | 0 => ⟨S4096x1x4096, .f32⟩
  | 1 => ⟨S4096x1x4096, .f32⟩
  | 2 => ⟨S4096x1x4096, .f32⟩
  | 3 => ⟨S4096x1x4096, .f32⟩
  | 4 => ⟨S4096x1x4096, .f32⟩
  | 5 => ⟨S4096x1x4096, .f32⟩
  | 6 => ⟨S4096x1x4096, .f32⟩
  | 7 => ⟨S4096x1x4096, .f32⟩
  | 8 => ⟨S4096x1x4096, .f32⟩
  | 9 => ⟨S_, .f32⟩
  | 10 => ⟨S4096x1x4096, .f32⟩
  | 11 => ⟨S4096x1x4096, .f32⟩
  | 12 => ⟨S4096x1x4096, .f32⟩
  | 13 => ⟨S4096x1x4096, .f32⟩
  | 14 => ⟨S4096x1x4096, .f32⟩
  | 15 => ⟨S4096x1x4096, .f32⟩
  | 16 => ⟨S4096x1x4096, .f32⟩
  | 17 => ⟨S4096x1x4096, .f32⟩
  | 18 => ⟨S4096x1x4096, .f32⟩
  | 19 => ⟨S4096x1x4096, .f32⟩
  | 20 => ⟨S4096x1x4096, .f32⟩
  | 21 => ⟨S4096x1x4096, .f32⟩
  | 22 => ⟨S4096x1x4096, .f32⟩
  | 23 => ⟨S4096x1x4096, .f32⟩
  | 24 => ⟨S4096x1x4096, .f32⟩
  | 25 => ⟨S4096x1x4096, .f32⟩
  | 26 => ⟨S4096x1x4096, .f32⟩
  | 27 => ⟨S4096x1x4096, .f32⟩
  | 28 => ⟨S4096x1x4096, .f32⟩
  | 29 => ⟨S4096x1x4096, .f32⟩
  | 30 => ⟨S4096x1x4096, .f32⟩
  | 31 => ⟨S4096x1x4096, .f32⟩
  | 32 => ⟨S4096x1x4096, .f32⟩
  | 33 => ⟨S4096x1x4096, .f32⟩
  | 34 => ⟨S4096x1x4096, .f32⟩
  | 35 => ⟨S4096x1x4096, .f32⟩
  | 36 => ⟨S4096x1x4096, .f32⟩
  | 37 => ⟨S4096x1x4096, .f32⟩
  | 38 => ⟨S4096x3x4096, .f32⟩
  | 39 => ⟨S4096x3x4096, .f32⟩
  | 40 => ⟨S4096x1x4096, .f32⟩
  | 41 => ⟨S_, .f32⟩
  | 42 => ⟨S4096x1x4096, .f32⟩
  | 43 => ⟨S4096x1x4096, .f32⟩
  | 44 => ⟨S_, .f32⟩
  | 45 => ⟨S4096x1x4096, .f32⟩
  | 46 => ⟨S4096x1x4096, .f32⟩
  | 47 => ⟨S4096x1x4096, .f32⟩
  | 48 => ⟨S_, .f32⟩
  | 49 => ⟨S4096x1x4096, .f32⟩
  | 50 => ⟨S4096x1x4096, .f32⟩
  | 51 => ⟨S4096x1x4096, .f32⟩
  | 52 => ⟨S4096x1x4096, .f32⟩
  | 53 => ⟨S4096x1x4096, .f32⟩
  | 54 => ⟨S4096x1x4096, .f32⟩
  | 55 => ⟨S4096x1x4096, .f32⟩
  | 56 => ⟨S4096x1x4096, .f32⟩
  | 57 => ⟨S_, .f32⟩
  | 58 => ⟨S4096x1x4096, .f32⟩
  | 59 => ⟨S4096x1x4096, .f32⟩
  | 60 => ⟨S4096x1x4096, .f32⟩
  | 61 => ⟨S4096x1x4096, .f32⟩
  | 62 => ⟨S4096x1x4096, .f32⟩
  | 63 => ⟨S4096x1x4096, .f32⟩
  | 64 => ⟨S4096x1x4096, .f32⟩
  | 65 => ⟨S4096x1x4096, .f32⟩
  | 66 => ⟨S4096x1x4096, .f32⟩
  | 67 => ⟨S4096x1x4096, .f32⟩
  | 68 => ⟨S4096x1x4096, .f32⟩
  | 69 => ⟨S4096x1x4096, .f32⟩
  | 70 => ⟨S4096x1x4096, .f32⟩
  | 71 => ⟨S_, .f32⟩
  | 72 => ⟨S4096x1x4096, .f32⟩
  | 73 => ⟨S4096x1x4096, .f32⟩
  | 74 => ⟨S4096x1x4096, .f32⟩
  | 75 => ⟨S_, .f32⟩
  | 76 => ⟨S4096x1x4096, .f32⟩
  | 77 => ⟨S4096x1x4096, .f32⟩
  | 78 => ⟨S4096x1x4096, .f32⟩
  | 79 => ⟨S4096x1x4096, .f32⟩
  | 80 => ⟨S4096x1x4096, .f32⟩
  | 81 => ⟨S4096x1x4096, .f32⟩
  | 82 => ⟨S4096x1x4096, .f32⟩
  | 83 => ⟨S4096x1x4096, .f32⟩
  | 84 => ⟨S4096x1x4096, .f32⟩
  | 85 => ⟨S4096x1x4096, .f32⟩
  | 86 => ⟨S4096x1x4096, .f32⟩
  | 87 => ⟨S4096x1x4096, .f32⟩
  | 88 => ⟨S_, .f32⟩
  | 89 => ⟨S4096x1x4096, .f32⟩
  | 90 => ⟨S4096x1x4096, .f32⟩
  | 91 => ⟨S4096x1x4096, .f32⟩
  | 92 => ⟨S4096x1x4096, .f32⟩
  | 93 => ⟨S4096x1x4096, .f32⟩
  | 94 => ⟨S4096x1x4096, .f32⟩
  | 95 => ⟨S4096x1x4096, .f32⟩
  | 96 => ⟨S4096x1x4096, .f32⟩
  | 97 => ⟨S4096x1x4096, .f32⟩
  | 98 => ⟨S4096x1x4096, .f32⟩
  | 99 => ⟨S4096x1x4096, .f32⟩
  | 100 => ⟨S4096x1x4096, .f32⟩
  | 101 => ⟨S4096x1x4096, .f32⟩
  | 102 => ⟨S4096x1x4096, .f32⟩
  | 103 => ⟨S4096x1x4096, .f32⟩
  | 104 => ⟨S4096x1x4096, .f32⟩
  | 105 => ⟨S4096x1x4096, .f32⟩
  | 106 => ⟨S4096x1x4096, .f32⟩
  | 107 => ⟨S4096x1x4096, .f32⟩
  | 108 => ⟨S4096x1x4096, .f32⟩
  | 109 => ⟨S4096x1x4096, .f32⟩
  | 110 => ⟨S4096x1x4096, .f32⟩
  | 111 => ⟨S4096x1x4096, .f32⟩
  | 112 => ⟨S4096x1x4096, .f32⟩
  | 113 => ⟨S4096x1x4096, .f32⟩
  | 114 => ⟨S4096x1x4096, .f32⟩
  | 115 => ⟨S4096x1x4096, .f32⟩
  | 116 => ⟨S4096x1x4096, .f32⟩
  | 117 => ⟨S4096x3x4096, .f32⟩
  | 118 => ⟨S4096x3x4096, .f32⟩
  | 119 => ⟨S4096x3x4096, .f32⟩
  | 120 => ⟨S_, .f32⟩
  | 121 => ⟨S4096x3x4096, .f32⟩
  | 122 => ⟨S4096x3x4096, .f32⟩
  | _ => ⟨S4096x3x4096, .f32⟩

abbrev hbmTy (i : Nat) : BufTy := match i / 128 with
  | 0 => hbmTy0_0 i
  | 1 => hbmTy0_1 i
  | _ => ⟨S4096x3x4096, .f32⟩

abbrev bufTy : (tb : Table) → Fin (tcTables nBuf tb) → BufTy
  | .hbm, ⟨i, _⟩ => hbmTy i
  | _, _ => ⟨S4096x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_1 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_2 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_3 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_4 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_5 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_6 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_cst_7 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_8 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_9 : Ref sig .tc := ⟨.hbm, 90, rfl⟩
abbrev main_v79 : Ref sig .tc := ⟨.hbm, 91, rfl⟩
abbrev main_v80 : Ref sig .tc := ⟨.hbm, 92, rfl⟩
abbrev main_cst_10 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_cst_11 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_cst_12 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_cst_13 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_cst_14 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_cst_15 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_cst_16 : Ref sig .tc := ⟨.hbm, 169, rfl⟩
abbrev main_v151 : Ref sig .tc := ⟨.hbm, 170, rfl⟩
abbrev main_v152 : Ref sig .tc := ⟨.hbm, 171, rfl⟩
abbrev main_cst_17 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_cst_18 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_cst_19 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_cst_20 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_cst_21 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_cst_22 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_cst_23 : Ref sig .tc := ⟨.hbm, 248, rfl⟩
abbrev main_v223 : Ref sig .tc := ⟨.hbm, 249, rfl⟩
abbrev main_v224 : Ref sig .tc := ⟨.hbm, 250, rfl⟩

abbrev nD : Nat := 1
abbrev τ : Topo := Topo.v7x

variable {F : FTy → Type} [FloatOps F]

class Facts₀ : Prop where
  slices_S4096x3x4096_S4096x3x1_0_0_0 : S4096x3x4096.Slices ![0, 0, 0] S4096x3x1
  slices_S4096x3x4096_S4096x3x4095_0_0_0 : S4096x3x4096.Slices ![0, 0, 0] S4096x3x4095
  concatenates_S4096x3x1_S4096x3x4095_S4096x3x4096_d2 : Shape.Concatenates [S4096x3x1, S4096x3x4095] S4096x3x4096 2
  slices_S4096x3x4096_S4096x3x4095_0_0_1 : S4096x3x4096.Slices ![0, 0, 1] S4096x3x4095
  slices_S4096x3x4096_S4096x3x1_0_0_4095 : S4096x3x4096.Slices ![0, 0, 4095] S4096x3x1
  concatenates_S4096x3x4095_S4096x3x1_S4096x3x4096_d2 : Shape.Concatenates [S4096x3x4095, S4096x3x1] S4096x3x4096 2
  slices_S4096x3x4096_S4096x1x4096_0_0_0 : S4096x3x4096.Slices ![0, 0, 0] S4096x1x4096
  slices_S4096x3x4096_S4096x1x4096_0_1_0 : S4096x3x4096.Slices ![0, 1, 0] S4096x1x4096
  slices_S4096x3x4096_S4096x1x4096_0_2_0 : S4096x3x4096.Slices ![0, 2, 0] S4096x1x4096
  bcast_S_S4096x1x4096 : S_.BroadcastsInDim S4096x1x4096 (![] : Fin 0 → Fin S4096x1x4096.rank)
  concatenates_S4096x1x4096_S4096x1x4096_S4096x1x4096_S4096x3x4096_d1 : Shape.Concatenates [S4096x1x4096, S4096x1x4096, S4096x1x4096] S4096x3x4096 1
  bcast_S_S4096x3x4096 : S_.BroadcastsInDim S4096x3x4096 (![] : Fin 0 → Fin S4096x3x4096.rank)

variable [Facts₀]

class Facts : Prop extends Facts₀ where

variable [Facts]
-- ==== Proof.LibRowBlocks.lean ====
/-
  Row-blocked arrays: an array over rows `Fin A` that is, entry by entry, an array over rows `Fin B` read at the rows
  `f a` (`Restr f K R`: `K (a, c, l) = R (f a, c, l)`). A program that works row by row — elementwise arithmetic,
  a slice of one channel, a shift along the last axis that repeats the edge entry, a concatenation of channels —
  sends related arrays to related arrays, so a kernel that runs such a program on a block of rows computes the
  block of what the same program computes on all the rows. The lemmas here are that statement, one per operation,
  generic in the two row counts and in the row map; the layout operations are first read at an index `(a, c, l)`.
-/
import Idealize.ShloMosaic.Lib.ValueIdx
import Idealize.ShloMosaic.Lib.Pipeline.Value
import Idealize.ShloMosaic.Lib.IdealHost
import Idealize.ShloMosaic.PureOps.Ideal.Laws

noncomputable section

namespace RowBlocks

open Idealize.ShloMosaic Idealize.ShloMosaic.ValueIdx

/-! ## Layout operations of a three-axis array read at an index `(a, c, l)` -/

section Read
variable {N : ℕ} {α : Type}

/-- Channel `k` of a three-channel array, sliced out as a one-channel array, reads the operand at channel `k`. -/
theorem chan_apply {L : ℕ} (k : Fin 3) (x : (⟨3, ![N, 3, L]⟩ : Shape).Idx → α)
    (hs : (⟨3, ![N, 3, L]⟩ : Shape).Slices ![0, k.val, 0] ⟨3, ![N, 1, L]⟩) (a : Fin N) (c : Fin 1) (l : Fin L) :
    extractStridedSlice ⟨3, ![N, 1, L]⟩ ![0, k.val, 0] x hs (ix3 a c l) = x (ix3 a k l) := by
  refine extractStridedSlice_apply _ x hs (ix3 a c l) (ix3 a k l) fun d => ?_
  match d with
  | ⟨0, _⟩ => show a.val = 0 + a.val; omega
  | ⟨1, _⟩ => show k.val = k.val + c.val; have := c.isLt; omega
  | ⟨2, _⟩ => show l.val = 0 + l.val; omega

/-- The shift towards higher positions that repeats the first entry (entry `0` in front of entries `0 … 4094`):
    position `l` reads the operand at `l - 1`, position `0` at `0`. -/
theorem shiftUp_apply (x : (⟨3, ![N, 3, 4096]⟩ : Shape).Idx → α)
    (h1 : (⟨3, ![N, 3, 4096]⟩ : Shape).Slices ![0, 0, 0] ⟨3, ![N, 3, 1]⟩)
    (h2 : (⟨3, ![N, 3, 4096]⟩ : Shape).Slices ![0, 0, 0] ⟨3, ![N, 3, 4095]⟩)
    (hc : Shape.Concatenates [⟨3, ![N, 3, 1]⟩, ⟨3, ![N, 3, 4095]⟩] ⟨3, ![N, 3, 4096]⟩ 2)
    (a : Fin N) (c : Fin 3) (l : Fin 4096) :
    concatenate ⟨3, ![N, 3, 4096]⟩ 2 [⟨⟨3, ![N, 3, 1]⟩, extractStridedSlice ⟨3, ![N, 3, 1]⟩ ![0, 0, 0] x h1⟩,
      ⟨⟨3, ![N, 3, 4095]⟩, extractStridedSlice ⟨3, ![N, 3, 4095]⟩ ![0, 0, 0] x h2⟩] hc (ix3 a c l)
      = x (ix3 a c ⟨l.val - 1, by have := l.isLt; omega⟩) := by
  have hl := l.isLt
  by_cases h0 : l.val = 0
  · refine (concatenate_pair_apply_left (s₁ := ⟨3, ![N, 3, 1]⟩) (s₂ := ⟨3, ![N, 3, 4095]⟩) (2 : Fin 3) _ _ hc (ix3 a c l) rfl
      (ix3 a c (0 : Fin 1)) fun d => ?_).trans ?_
    · match d with
      | ⟨0, _⟩ => rfl
      | ⟨1, _⟩ => rfl
      | ⟨2, _⟩ => show (0 : ℕ) = l.val; omega
    · refine extractStridedSlice_apply (t := ⟨3, ![N, 3, 1]⟩) _ x h1 (ix3 a c (0 : Fin 1)) _ fun d => ?_
      match d with
      | ⟨0, _⟩ => show a.val = 0 + a.val; omega
      | ⟨1, _⟩ => show c.val = 0 + c.val; omega
      | ⟨2, _⟩ => show l.val - 1 = 0 + 0; omega
  · refine (concatenate_pair_apply_right (s₁ := ⟨3, ![N, 3, 1]⟩) (s₂ := ⟨3, ![N, 3, 4095]⟩) (2 : Fin 3) _ _ hc (ix3 a c l) rfl rfl
      (ix3 a c (⟨l.val - 1, by omega⟩ : Fin 4095)) (fun d hd => ?_) ?_).trans ?_
    · match d with
      | ⟨0, _⟩ => rfl
      | ⟨1, _⟩ => rfl
      | ⟨2, _⟩ => exact absurd rfl hd
    · show l.val - 1 + 1 = l.val; omega
    · refine extractStridedSlice_apply (t := ⟨3, ![N, 3, 4095]⟩) _ x h2 (ix3 a c (⟨l.val - 1, by omega⟩ : Fin 4095)) _ fun d => ?_
      match d with
      | ⟨0, _⟩ => show a.val = 0 + a.val; omega
      | ⟨1, _⟩ => show c.val = 0 + c.val; omega
      | ⟨2, _⟩ => show l.val - 1 = 0 + (l.val - 1); omega

/-- The shift towards lower positions that repeats the last entry (entries `1 … 4095` followed by entry `4095`):
    position `l` reads the operand at `l + 1`, position `4095` at `4095`. -/
theorem shiftDown_apply (x : (⟨3, ![N, 3, 4096]⟩ : Shape).Idx → α)
    (h1 : (⟨3, ![N, 3, 4096]⟩ : Shape).Slices ![0, 0, 1] ⟨3, ![N, 3, 4095]⟩)
    (h2 : (⟨3, ![N, 3, 4096]⟩ : Shape).Slices ![0, 0, 4095] ⟨3, ![N, 3, 1]⟩)
    (hc : Shape.Concatenates [⟨3, ![N, 3, 4095]⟩, ⟨3, ![N, 3, 1]⟩] ⟨3, ![N, 3, 4096]⟩ 2)
    (a : Fin N) (c : Fin 3) (l : Fin 4096) :
    concatenate ⟨3, ![N, 3, 4096]⟩ 2 [⟨⟨3, ![N, 3, 4095]⟩, extractStridedSlice ⟨3, ![N, 3, 4095]⟩ ![0, 0, 1] x h1⟩,
      ⟨⟨3, ![N, 3, 1]⟩, extractStridedSlice ⟨3, ![N, 3, 1]⟩ ![0, 0, 4095] x h2⟩] hc (ix3 a c l)
      = x (ix3 a c ⟨min (l.val + 1) 4095, by omega⟩) := by
  have hl := l.isLt
  by_cases h0 : l.val < 4095
  · refine (concatenate_pair_apply_left (s₁ := ⟨3, ![N, 3, 4095]⟩) (s₂ := ⟨3, ![N, 3, 1]⟩) (2 : Fin 3) _ _ hc (ix3 a c l) rfl
      (ix3 a c (⟨l.val, h0⟩ : Fin 4095)) fun d => ?_).trans ?_
    · match d with
      | ⟨0, _⟩ => rfl
      | ⟨1, _⟩ => rfl
      | ⟨2, _⟩ => rfl
    · refine extractStridedSlice_apply (t := ⟨3, ![N, 3, 4095]⟩) _ x h1 (ix3 a c (⟨l.val, h0⟩ : Fin 4095)) _ fun d => ?_
      match d with
      | ⟨0, _⟩ => show a.val = 0 + a.val; omega
      | ⟨1, _⟩ => show c.val = 0 + c.val; omega
      | ⟨2, _⟩ => show min (l.val + 1) 4095 = 1 + l.val; omega
  · refine (concatenate_pair_apply_right (s₁ := ⟨3, ![N, 3, 4095]⟩) (s₂ := ⟨3, ![N, 3, 1]⟩) (2 : Fin 3) _ _ hc (ix3 a c l) rfl rfl
      (ix3 a c (0 : Fin 1)) (fun d hd => ?_) ?_).trans ?_
    · match d with
      | ⟨0, _⟩ => rfl
      | ⟨1, _⟩ => rfl
      | ⟨2, _⟩ => exact absurd rfl hd
    · show 0 + 4095 = l.val; omega
    · refine extractStridedSlice_apply (t := ⟨3, ![N, 3, 1]⟩) _ x h2 (ix3 a c (0 : Fin 1)) _ fun d => ?_
      match d with
      | ⟨0, _⟩ => show a.val = 0 + a.val; omega
      | ⟨1, _⟩ => show c.val = 0 + c.val; omega
      | ⟨2, _⟩ => show min (l.val + 1) 4095 = 4095 + 0; omega

/-- Three one-channel arrays concatenated along the channel axis: channel `c` reads the `c`-th operand. -/
theorem chans_apply {L : ℕ} (y0 y1 y2 : (⟨3, ![N, 1, L]⟩ : Shape).Idx → α)
    (hc : Shape.Concatenates [⟨3, ![N, 1, L]⟩, ⟨3, ![N, 1, L]⟩, ⟨3, ![N, 1, L]⟩] ⟨3, ![N, 3, L]⟩ 1)
    (a : Fin N) (c : Fin 3) (l : Fin L) :
    concatenate ⟨3, ![N, 3, L]⟩ 1 [⟨⟨3, ![N, 1, L]⟩, y0⟩, ⟨⟨3, ![N, 1, L]⟩, y1⟩, ⟨⟨3, ![N, 1, L]⟩, y2⟩] hc (ix3 a c l)
      = (match c with | ⟨0, _⟩ => y0 | ⟨1, _⟩ => y1 | ⟨2, _⟩ => y2) (ix3 a (0 : Fin 1) l) := by
  match c with
  | ⟨0, _⟩ =>
    refine concatenate_apply_piece (t := ⟨3, ![N, 3, L]⟩) (1 : Fin 3)
      [⟨⟨3, ![N, 1, L]⟩, y0⟩, ⟨⟨3, ![N, 1, L]⟩, y1⟩, ⟨⟨3, ![N, 1, L]⟩, y2⟩] hc _ 0 (by show 0 < 3; omega) ⟨3, ![N, 1, L]⟩ y0 rfl rfl 0 rfl
      (ix3 a (0 : Fin 1) l) (fun d hd => ?_) rfl
    match d with
    | ⟨0, _⟩ => rfl
    | ⟨1, _⟩ => exact absurd rfl hd
    | ⟨2, _⟩ => rfl
  | ⟨1, _⟩ =>
    refine concatenate_apply_piece (t := ⟨3, ![N, 3, L]⟩) (1 : Fin 3)
      [⟨⟨3, ![N, 1, L]⟩, y0⟩, ⟨⟨3, ![N, 1, L]⟩, y1⟩, ⟨⟨3, ![N, 1, L]⟩, y2⟩] hc _ 1 (by show 1 < 3; omega) ⟨3, ![N, 1, L]⟩ y1 rfl rfl 1 rfl
      (ix3 a (0 : Fin 1) l) (fun d hd => ?_) rfl
    match d with
    | ⟨0, _⟩ => rfl
    | ⟨1, _⟩ => exact absurd rfl hd
    | ⟨2, _⟩ => rfl
  | ⟨2, _⟩ =>
    refine concatenate_apply_piece (t := ⟨3, ![N, 3, L]⟩) (1 : Fin 3)
      [⟨⟨3, ![N, 1, L]⟩, y0⟩, ⟨⟨3, ![N, 1, L]⟩, y1⟩, ⟨⟨3, ![N, 1, L]⟩, y2⟩] hc _ 2 (by show 2 < 3; omega) ⟨3, ![N, 1, L]⟩ y2 rfl rfl 2 rfl
      (ix3 a (0 : Fin 1) l) (fun d hd => ?_) rfl
    match d with
    | ⟨0, _⟩ => rfl
    | ⟨1, _⟩ => exact absurd rfl hd
    | ⟨2, _⟩ => rfl

end Read

/-! ## The relation, and the operations that keep it -/

variable {A B : ℕ}

/-- `K`, an array of `A` rows, is the array `R` of `B` rows read at the rows `f a`. -/
def Restr {C L : ℕ} {α : Type} (f : Fin A → Fin B) (K : (⟨3, ![A, C, L]⟩ : Shape).Idx → α)
    (R : (⟨3, ![B, C, L]⟩ : Shape).Idx → α) : Prop :=
  ∀ (a : Fin A) (c : Fin C) (l : Fin L), K (ix3 a c l) = R (ix3 (f a) c l)

section Pointwise
variable {C L : ℕ} {φ : FTy} {f : Fin A → Fin B}
variable {a b : FVec Ideal ⟨3, ![A, C, L]⟩ φ} {a' b' : FVec Ideal ⟨3, ![B, C, L]⟩ φ}

theorem restr_mulf (h1 : Restr f a a') (h2 : Restr f b b') : Restr f (mulf a b) (mulf a' b') :=
  fun x c l => congrArg₂ (fun p q : EReal => p * q) (h1 x c l) (h2 x c l)

theorem restr_addf (h1 : Restr f a a') (h2 : Restr f b b') : Restr f (addf a b) (addf a' b') :=
  fun x c l => congrArg₂ (fun p q : EReal => p + q) (h1 x c l) (h2 x c l)

theorem restr_subf (h1 : Restr f a a') (h2 : Restr f b b') : Restr f (subf a b) (subf a' b') :=
  fun x c l => congrArg₂ (fun p q : EReal => p - q) (h1 x c l) (h2 x c l)

/-- The kernel's quotient against the host's: one function on the extended reals. -/
theorem restr_divf (h1 : Restr f a a') (h2 : Restr f b b') : Restr f (divf a b) (Host.divf a' b') :=
  fun x c l => congrArg₂ Ideal.div (h1 x c l) (h2 x c l)

/-- The kernel's square root against the host's: one function on the extended reals. -/
theorem restr_sqrt (h1 : Restr f a a') : Restr f (sqrt a) (Host.sqrt a') :=
  fun x c l => congrArg Ideal.sqrt (h1 x c l)

/-- The kernel's absolute value against the host's: one function on the extended reals. -/
theorem restr_absf (h1 : Restr f a a') : Restr f (absf a) (Host.absf a') :=
  fun x c l => congrArg (FloatOps.absf (F := Ideal)) (h1 x c l)

/-- The kernel's `0 - x` against the host's negation: on the extended reals `0 - x = -x`. -/
theorem restr_zero_subf {a : FVec Ideal ⟨3, ![A, C, L]⟩ .f32} {a' : FVec Ideal ⟨3, ![B, C, L]⟩ .f32} (h1 : Restr f a a') :
    Restr f (subf (broadcast ⟨3, ![A, C, L]⟩ (Scalar.ofBits (F := Ideal) .f32 0x00000000#32)) a) (Host.negf a') := by
  intro x c l
  show Ideal.ofBits .f32 0x00000000#32 - a (ix3 x c l) = -(a' (ix3 (f x) c l))
  rw [h1 x c l, Ideal.ofBits_zero_f32, zero_sub]

end Pointwise

/-- A scalar constant splat over the block against the host's broadcast of the same word over the array. -/
theorem restr_const {C L : ℕ} {φ : FTy} (f : Fin A → Fin B) (w : BitVec φ.bits)
    (h : (⟨0, ![]⟩ : Shape).BroadcastsInDim ⟨3, ![B, C, L]⟩ ![]) :
    Restr f (broadcast ⟨3, ![A, C, L]⟩ (Scalar.ofBits (F := Ideal) φ w))
      (broadcastInDim ⟨3, ![B, C, L]⟩ ![] h (constant (F := Ideal) ⟨0, ![]⟩ φ w)) := by
  intro x c l
  rw [broadcastInDim_scalar_apply]
  rfl

section Layout
variable {α : Type} {f : Fin A → Fin B}

theorem restr_chan {L : ℕ} (k : Fin 3) {x : (⟨3, ![A, 3, L]⟩ : Shape).Idx → α} {x' : (⟨3, ![B, 3, L]⟩ : Shape).Idx → α}
    (h : Restr f x x') (hs : (⟨3, ![A, 3, L]⟩ : Shape).Slices ![0, k.val, 0] ⟨3, ![A, 1, L]⟩)
    (hs' : (⟨3, ![B, 3, L]⟩ : Shape).Slices ![0, k.val, 0] ⟨3, ![B, 1, L]⟩) :
    Restr f (extractStridedSlice ⟨3, ![A, 1, L]⟩ ![0, k.val, 0] x hs) (extractStridedSlice ⟨3, ![B, 1, L]⟩ ![0, k.val, 0] x' hs') :=
  fun a c l => by rw [chan_apply, chan_apply, h a k l]

theorem restr_chan0 {L : ℕ} {x : (⟨3, ![A, 3, L]⟩ : Shape).Idx → α} {x' : (⟨3, ![B, 3, L]⟩ : Shape).Idx → α}
    (h : Restr f x x') (hs : (⟨3, ![A, 3, L]⟩ : Shape).Slices ![0, 0, 0] ⟨3, ![A, 1, L]⟩)
    (hs' : (⟨3, ![B, 3, L]⟩ : Shape).Slices ![0, 0, 0] ⟨3, ![B, 1, L]⟩) :
    Restr f (extractStridedSlice ⟨3, ![A, 1, L]⟩ ![0, 0, 0] x hs) (extractStridedSlice ⟨3, ![B, 1, L]⟩ ![0, 0, 0] x' hs') :=
  restr_chan 0 h hs hs'

theorem restr_chan1 {L : ℕ} {x : (⟨3, ![A, 3, L]⟩ : Shape).Idx → α} {x' : (⟨3, ![B, 3, L]⟩ : Shape).Idx → α}
    (h : Restr f x x') (hs : (⟨3, ![A, 3, L]⟩ : Shape).Slices ![0, 1, 0] ⟨3, ![A, 1, L]⟩)
    (hs' : (⟨3, ![B, 3, L]⟩ : Shape).Slices ![0, 1, 0] ⟨3, ![B, 1, L]⟩) :
    Restr f (extractStridedSlice ⟨3, ![A, 1, L]⟩ ![0, 1, 0] x hs) (extractStridedSlice ⟨3, ![B, 1, L]⟩ ![0, 1, 0] x' hs') :=
  restr_chan 1 h hs hs'

theorem restr_chan2 {L : ℕ} {x : (⟨3, ![A, 3, L]⟩ : Shape).Idx → α} {x' : (⟨3, ![B, 3, L]⟩ : Shape).Idx → α}
    (h : Restr f x x') (hs : (⟨3, ![A, 3, L]⟩ : Shape).Slices ![0, 2, 0] ⟨3, ![A, 1, L]⟩)
    (hs' : (⟨3, ![B, 3, L]⟩ : Shape).Slices ![0, 2, 0] ⟨3, ![B, 1, L]⟩) :
    Restr f (extractStridedSlice ⟨3, ![A, 1, L]⟩ ![0, 2, 0] x hs) (extractStridedSlice ⟨3, ![B, 1, L]⟩ ![0, 2, 0] x' hs') :=
  restr_chan 2 h hs hs'

theorem restr_shiftUp {x : (⟨3, ![A, 3, 4096]⟩ : Shape).Idx → α} {x' : (⟨3, ![B, 3, 4096]⟩ : Shape).Idx → α}
    (h : Restr f x x') (h1 h2 hc h1' h2' hc') :
    Restr f
      (concatenate ⟨3, ![A, 3, 4096]⟩ 2 [⟨⟨3, ![A, 3, 1]⟩, extractStridedSlice ⟨3, ![A, 3, 1]⟩ ![0, 0, 0] x h1⟩,
        ⟨⟨3, ![A, 3, 4095]⟩, extractStridedSlice ⟨3, ![A, 3, 4095]⟩ ![0, 0, 0] x h2⟩] hc)
      (concatenate ⟨3, ![B, 3, 4096]⟩ 2 [⟨⟨3, ![B, 3, 1]⟩, extractStridedSlice ⟨3, ![B, 3, 1]⟩ ![0, 0, 0] x' h1'⟩,
        ⟨⟨3, ![B, 3, 4095]⟩, extractStridedSlice ⟨3, ![B, 3, 4095]⟩ ![0, 0, 0] x' h2'⟩] hc') :=
  fun a c l => by rw [shiftUp_apply, shiftUp_apply, h a c _]

theorem restr_shiftDown {x : (⟨3, ![A, 3, 4096]⟩ : Shape).Idx → α} {x' : (⟨3, ![B, 3, 4096]⟩ : Shape).Idx → α}
    (h : Restr f x x') (h1 h2 hc h1' h2' hc') :
    Restr f
      (concatenate ⟨3, ![A, 3, 4096]⟩ 2 [⟨⟨3, ![A, 3, 4095]⟩, extractStridedSlice ⟨3, ![A, 3, 4095]⟩ ![0, 0, 1] x h1⟩,
        ⟨⟨3, ![A, 3, 1]⟩, extractStridedSlice ⟨3, ![A, 3, 1]⟩ ![0, 0, 4095] x h2⟩] hc)
      (concatenate ⟨3, ![B, 3, 4096]⟩ 2 [⟨⟨3, ![B, 3, 4095]⟩, extractStridedSlice ⟨3, ![B, 3, 4095]⟩ ![0, 0, 1] x' h1'⟩,
        ⟨⟨3, ![B, 3, 1]⟩, extractStridedSlice ⟨3, ![B, 3, 1]⟩ ![0, 0, 4095] x' h2'⟩] hc') :=
  fun a c l => by rw [shiftDown_apply, shiftDown_apply, h a c _]

theorem restr_chans {L : ℕ} {y0 y1 y2 : (⟨3, ![A, 1, L]⟩ : Shape).Idx → α} {z0 z1 z2 : (⟨3, ![B, 1, L]⟩ : Shape).Idx → α}
    (h0 : Restr f y0 z0) (h1 : Restr f y1 z1) (h2 : Restr f y2 z2) (hc hc') :
    Restr f (concatenate ⟨3, ![A, 3, L]⟩ 1 [⟨⟨3, ![A, 1, L]⟩, y0⟩, ⟨⟨3, ![A, 1, L]⟩, y1⟩, ⟨⟨3, ![A, 1, L]⟩, y2⟩] hc)
      (concatenate ⟨3, ![B, 3, L]⟩ 1 [⟨⟨3, ![B, 1, L]⟩, z0⟩, ⟨⟨3, ![B, 1, L]⟩, z1⟩, ⟨⟨3, ![B, 1, L]⟩, z2⟩] hc') := by
  intro a c l
  rw [chans_apply, chans_apply]
  match c with
  | ⟨0, _⟩ => exact h0 a 0 l
  | ⟨1, _⟩ => exact h1 a 0 l
  | ⟨2, _⟩ => exact h2 a 0 l

end Layout

end RowBlocks

end
-- ==== Proof.RoeRows.lean ====
/-
  The flux of a block of rows is the block of the flux of all rows.

  Both programs compute, at every entry `(n, c, l)`, the same expression of the nine entries `u (n, c', l - 1)`,
  `u (n, c', l)`, `u (n, c', l + 1)` (`c' = 0, 1, 2`; the positions clamped to `0 … 4095`): the enthalpies and
  square-root densities of the cell and of its two neighbours, the two averaged states, their sound speeds, and
  the two one-sided fluxes, whose sum is negated and divided by `2·dx`. The kernel evaluates it on the 128 rows
  of a block, the reference on all 4096 rows. Every operation either acts entry by entry, or takes one channel,
  or shifts along the last axis repeating the edge entry, or stacks three channels — all row by row — so by
  `RowBlocks` each value the kernel forms on block `t` is the reference's value read at the rows `128·t + b`.
  The two spellings that differ, the kernel's `0 - x` against the host's negation and the kernel's quotient,
  square root and absolute value against the host's, are the same functions of an extended real.
-/
import proofs.«102478_j8787503087637_1_alg».proof.Proof.Gen.KernelIdeal.Frame
import proofs.«102478_j8787503087637_1_alg».proof.Proof.Gen.ReferenceIdeal.Run
import proofs.«102478_j8787503087637_1_alg».proof.Proof.LibRowBlocks

noncomputable section

namespace Cert.RoeRows

/-! ## The reference's result as a function of the buffers' launch contents -/

section Ref
open Cert.ReferenceIdeal Cert.ReferenceIdeal.Gen Idealize.ShloMosaic Idealize.ShloMosaic.TcCoe Idealize.SL.Sem
open Idealize.ShloMosaic.StableHlo Cert.ReferenceIdeal.Value

/-- What the reference's run leaves in its result buffer: minus the sum of the two one-sided fluxes, over `2·dx`,
    each flux the three channels stacked, written over the reference's named intermediate values. -/
def refOut (V0 : Valuation τ sig (Elt Ideal)) : FVec Ideal S4096x3x4096 .f32 :=
  Host.divf (Host.negf (addf (concatenate S4096x3x4096 1 [⟨S4096x1x4096, (addf (addf (res_main_v103 V0) (res_main_v118 V0)) (res_main_v131 V0))⟩, ⟨S4096x1x4096, (addf (addf (mulf (res_main_v86 V0) (res_main_v103 V0)) (mulf (res_main_v49 V0) (res_main_v118 V0))) (mulf (res_main_v87 V0) (res_main_v131 V0)))⟩, ⟨S4096x1x4096, (addf (addf (mulf (subf (res_main_v53 V0) (mulf (res_main_v49 V0) (res_main_v60 V0))) (res_main_v103 V0)) (mulf (res_main_v83 V0) (res_main_v118 V0))) (mulf (addf (res_main_v53 V0) (mulf (res_main_v49 V0) (res_main_v60 V0))) (res_main_v131 V0)))⟩] concatenates_S4096x1x4096_S4096x1x4096_S4096x1x4096_S4096x3x4096_d1) (concatenate S4096x3x4096 1 [⟨S4096x1x4096, (addf (addf (res_main_v175 V0) (res_main_v190 V0)) (res_main_v203 V0))⟩, ⟨S4096x1x4096, (addf (addf (mulf (res_main_v158 V0) (res_main_v175 V0)) (mulf (res_main_v65 V0) (res_main_v190 V0))) (mulf (res_main_v159 V0) (res_main_v203 V0)))⟩, ⟨S4096x1x4096, (addf (addf (mulf (subf (res_main_v69 V0) (mulf (res_main_v65 V0) (res_main_v76 V0))) (res_main_v175 V0)) (mulf (res_main_v155 V0) (res_main_v190 V0))) (mulf (addf (res_main_v69 V0) (mulf (res_main_v65 V0) (res_main_v76 V0))) (res_main_v203 V0)))⟩] concatenates_S4096x1x4096_S4096x1x4096_S4096x1x4096_S4096x3x4096_d1))) (broadcastInDim S4096x3x4096 ![] bcast_S_S4096x3x4096 (constant S_ .f32 0x3C23D70A#32))

end Ref

/-! ## Value by value: the kernel's on a block is the reference's at the block's rows -/

section Bridge
open Idealize.ShloMosaic Idealize.ShloMosaic.ValueIdx RowBlocks
open Cert.KernelIdeal Cert.KernelIdeal.Gen
open Cert.ReferenceIdeal.Value (res_main_v2 res_main_v5 res_main_v6 res_main_v7 res_main_v8 res_main_v17 res_main_v18 res_main_v19 res_main_v20 res_main_v30 res_main_v31 res_main_v32 res_main_v42 res_main_v43 res_main_v44 res_main_v45 res_main_v49 res_main_v53 res_main_v60 res_main_v61 res_main_v65 res_main_v69 res_main_v76 res_main_v77 res_main_v80 res_main_v83 res_main_v85 res_main_v86 res_main_v87 res_main_v88 res_main_v89 res_main_v90 res_main_v103 res_main_v118 res_main_v131 res_main_v149 res_main_v152 res_main_v155 res_main_v157 res_main_v158 res_main_v159 res_main_v160 res_main_v161 res_main_v162 res_main_v175 res_main_v190 res_main_v203)

theorem zero3 : (![0, 0, 0] : Fin 3 → Nat) = fun _ => 0 := funext fun a => by fin_cases a <;> rfl

/-- One step: the goal is a hypothesis, or its two sides are built by the same operation from related operands. -/
macro "rel" : tactic => `(tactic| repeat' (first
  | with_reducible assumption
  | with_reducible apply restr_mulf | with_reducible apply restr_addf | with_reducible apply restr_subf
  | with_reducible apply restr_divf | with_reducible apply restr_sqrt | with_reducible apply restr_absf
  | with_reducible apply restr_zero_subf | with_reducible apply restr_const
  | with_reducible apply restr_chan0 | with_reducible apply restr_chan1 | with_reducible apply restr_chan2
  | with_reducible apply restr_shiftUp | with_reducible apply restr_shiftDown | with_reducible apply restr_chans))

variable {f : Fin 128 → Fin 4096}

set_option hygiene false in
local notation "P2" => (k0_pay2 x0)
set_option hygiene false in
local notation "P3" => (k0_pay3 x0)
set_option hygiene false in
local notation "P4" => (k0_pay4 x0)
set_option hygiene false in
local notation "P5" => (k0_pay5 x0)
set_option hygiene false in
local notation "P6" => (k0_pay6 x0)
set_option hygiene false in
local notation "P7" => (k0_pay7 x0)
set_option hygiene false in
local notation "P8" => (k0_pay8 x0)
set_option hygiene false in
local notation "P9" => (k0_pay9 x0)
set_option hygiene false in
local notation "P10" => (k0_pay10 x0)
set_option hygiene false in
local notation "P11" => (k0_pay11 x0)
set_option hygiene false in
local notation "P12" => (k0_pay12 x0)
set_option hygiene false in
local notation "P13" => (k0_pay13 x0)
set_option hygiene false in
local notation "P14" => (k0_pay14 x0)
set_option hygiene false in
local notation "P15" => (k0_pay15 x0)
set_option hygiene false in
local notation "P16" => (k0_pay16 x0)
set_option hygiene false in
local notation "P17" => (k0_pay17 x0)
set_option hygiene false in
local notation "P18" => (k0_pay18 P16 P17)
set_option hygiene false in
local notation "P19" => (k0_pay19 P6 P9 P13 P14 P16)
set_option hygiene false in
local notation "P20" => (k0_pay20 P6 P9 P13 P14 P16 P17)
set_option hygiene false in
local notation "P21" => (k0_pay21 P13 P15)
set_option hygiene false in
local notation "P22" => (k0_pay22 P5 P11 P13 P15)
set_option hygiene false in
local notation "P23" => (k0_pay23 P6 P12 P13 P15)
set_option hygiene false in
local notation "P24" => (k0_pay24 P5 P6 P11 P12 P13 P15)
set_option hygiene false in
local notation "P25" => (k0_pay25 x0 P3)
set_option hygiene false in
local notation "P26" => (k0_pay26 P6 P9 P13 P14 P16 P17)
set_option hygiene false in
local notation "P27" => (k0_pay27 P16 P17)
set_option hygiene false in
local notation "P28" => (k0_pay28 P6 P9 P13 P14 P16 P17)
set_option hygiene false in
local notation "P29" => (k0_pay29 P6 P9 P13 P14 P16 P17)
set_option hygiene false in
local notation "P30" => (k0_pay30 P6 P9 P13 P14 P16 P17)
set_option hygiene false in
local notation "P31" => (k0_pay31 x0 P3)
set_option hygiene false in
local notation "P32" => (k0_pay32 x0 P3)
set_option hygiene false in
local notation "P33" => (k0_pay33 x0 P3)
set_option hygiene false in
local notation "P38" => (k0_pay38 x0 P2)
set_option hygiene false in
local notation "P39" => (k0_pay39 P24)
set_option hygiene false in
local notation "P40" => (k0_pay40 (F := Ideal))
set_option hygiene false in
local notation "P41" => (k0_pay41 P22 P40)
set_option hygiene false in
local notation "P42" => (k0_pay42 P24)
set_option hygiene false in
local notation "P43" => (k0_pay43 P22 P24)
set_option hygiene false in
local notation "P44" => (k0_pay44 P22 P24)
set_option hygiene false in
local notation "P45" => (k0_pay45 P38)
set_option hygiene false in
local notation "P46" => (k0_pay46 P38)
set_option hygiene false in
local notation "P47" => (k0_pay47 P38)
set_option hygiene false in
local notation "P48" => (k0_pay48 P22 P24 P38 P39 P40)
set_option hygiene false in
local notation "P49" => (k0_pay49 P22 P24 P38 P39 P40)
set_option hygiene false in
local notation "P50" => (k0_pay50 P22 P24 P38 P39 P40)

/-- What the body leaves in the output block, for a block `x0` that is the argument array at the rows `f b`, is the
    reference's result at those rows. The values are taken in the order the programs compute them: the shifted
    arrays, the channels, the enthalpies, the square roots, the two averaged states and their sound speeds, the
    flux coefficients and differences of each side, the three wave strengths of each side, and the sum. -/
theorem out_restr (x0 : FVec Ideal S128x3x4096 .f32)
    (V0 : Valuation Cert.ReferenceIdeal.τ Cert.ReferenceIdeal.sig (Elt Ideal))
    (hx : Restr f x0 (V0 (Proc.devRef .tc Cert.ReferenceIdeal.main_arg0) : FVec Ideal Cert.ReferenceIdeal.S4096x3x4096 .f32)) :
    Restr f (out0_1 (F := Ideal) x0) (refOut V0) := by
  have h2 : Restr f P2 (res_main_v2 V0) := by
    simp only [k0_pay2, res_main_v2]; rel
  have h3 : Restr f P3 (res_main_v5 V0) := by
    simp only [k0_pay3, res_main_v5]; rel
  have h4 : Restr f P4 (res_main_v6 V0) := by
    simp only [k0_pay4, res_main_v6]; rel
  have h5 : Restr f P5 (res_main_v7 V0) := by
    simp only [k0_pay5, res_main_v7]; rel
  have h6 : Restr f P6 (res_main_v17 V0) := by
    simp only [k0_pay6, res_main_v17, res_main_v8]; rel
  have h7 : Restr f P7 (res_main_v18 V0) := by
    simp only [k0_pay7, res_main_v18]; rel
  have h8 : Restr f P8 (res_main_v19 V0) := by
    simp only [k0_pay8, res_main_v19]; rel
  have h10 : Restr f P10 (res_main_v30 V0) := by
    simp only [k0_pay10, res_main_v30]; rel
  have h11 : Restr f P11 (res_main_v31 V0) := by
    simp only [k0_pay11, res_main_v31]; rel
  have h13 : Restr f P13 (res_main_v42 V0) := by
    simp only [k0_pay13, res_main_v42]; rel
  have h14 : Restr f P14 (res_main_v43 V0) := by
    simp only [k0_pay14, res_main_v43]; rel
  have h15 : Restr f P15 (res_main_v44 V0) := by
    simp only [k0_pay15, res_main_v44]; rel
  have h16 : Restr f P16 (res_main_v45 V0) := by
    simp only [k0_pay16, res_main_v45]; rel
  have h18 : Restr f P18 (res_main_v49 V0) := by
    simp only [k0_pay18, k0_pay17, res_main_v49]; rel
  have h19 : Restr f P19 (res_main_v53 V0) := by
    simp only [k0_pay19, k0_pay9, res_main_v53, res_main_v20]; rel
  have h20 : Restr f P20 (res_main_v60 V0) := by
    simp only [k0_pay20, res_main_v60]; rel
  have h21 : Restr f P21 (res_main_v61 V0) := by
    simp only [k0_pay21, res_main_v61]; rel
  have h22 : Restr f P22 (res_main_v65 V0) := by
    simp only [k0_pay22, res_main_v65]; rel
  have h23 : Restr f P23 (res_main_v69 V0) := by
    simp only [k0_pay23, k0_pay12, res_main_v69, res_main_v32]; rel
  have h24 : Restr f P24 (res_main_v76 V0) := by
    simp only [k0_pay24, res_main_v76]; rel
  have h25 : Restr f P25 (res_main_v77 V0) := by
    simp only [k0_pay25, res_main_v77]; rel
  have h26 : Restr f P26 (res_main_v80 V0) := by
    simp only [k0_pay26, res_main_v80]; rel
  have h27 : Restr f P27 (res_main_v83 V0) := by
    simp only [k0_pay27, res_main_v83]; rel
  have h28 : Restr f P28 (res_main_v85 V0) := by
    simp only [k0_pay28, res_main_v85]; rel
  have h29 : Restr f P29 (res_main_v86 V0) := by
    simp only [k0_pay29, res_main_v86]; rel
  have h30 : Restr f P30 (res_main_v87 V0) := by
    simp only [k0_pay30, res_main_v87]; rel
  have h31 : Restr f P31 (res_main_v88 V0) := by
    simp only [k0_pay31, res_main_v88]; rel
  have h32 : Restr f P32 (res_main_v89 V0) := by
    simp only [k0_pay32, res_main_v89]; rel
  have h33 : Restr f P33 (res_main_v90 V0) := by
    simp only [k0_pay33, res_main_v90]; rel
  have h38 : Restr f P38 (res_main_v149 V0) := by
    simp only [k0_pay38, res_main_v149]; rel
  have h39 : Restr f P39 (res_main_v152 V0) := by
    simp only [k0_pay39, res_main_v152]; rel
  have h41 : Restr f P41 (res_main_v155 V0) := by
    simp only [k0_pay41, k0_pay40, res_main_v155]; rel
  have h42 : Restr f P42 (res_main_v157 V0) := by
    simp only [k0_pay42, res_main_v157]; rel
  have h43 : Restr f P43 (res_main_v158 V0) := by
    simp only [k0_pay43, res_main_v158]; rel
  have h44 : Restr f P44 (res_main_v159 V0) := by
    simp only [k0_pay44, res_main_v159]; rel
  have h45 : Restr f P45 (res_main_v160 V0) := by
    simp only [k0_pay45, res_main_v160]; rel
  have h46 : Restr f P46 (res_main_v161 V0) := by
    simp only [k0_pay46, res_main_v161]; rel
  have h47 : Restr f P47 (res_main_v162 V0) := by
    simp only [k0_pay47, res_main_v162]; rel
  have h48 : Restr f P48 (res_main_v175 V0) := by
    simp only [k0_pay48, res_main_v175]; rel
  have h49 : Restr f P49 (res_main_v190 V0) := by
    simp only [k0_pay49, res_main_v190]; rel
  have h50 : Restr f P50 (res_main_v203 V0) := by
    simp only [k0_pay50, res_main_v203]; rel
  unfold out0_1 refOut
  rw [View.canon_unit_zero zero3]
  simp only [View.ld_unit_zero (S := S128x3x4096) zero3]
  simp only [k0_pay1, k0_pay37, k0_pay34, k0_pay35, k0_pay36, k0_pay51, k0_pay52, res_main_v103, res_main_v118, res_main_v131]
  rel

end Bridge

end Cert.RoeRows

end
-- ==== Proof.RoeArray.lean ====
/-
  From blocks to the array. Grid point `t` stages rows `128·t … 128·t + 127` of the argument (all three channels,
  all 4096 positions) and writes back the same rows of the result; the 32 blocks tile the 4096 rows. What point
  `t` writes back is the reference's result at those rows (`Cert.RoeRows.out_restr`, with the block of the
  argument for `x0`), so after the run the result array is the reference's result, entry by entry.
-/
import proofs.«102478_j8787503087637_1_alg».proof.Proof.Gen.KernelIdeal.Frame
import proofs.«102478_j8787503087637_1_alg».proof.Proof.RoeRows
import Idealize.ShloMosaic.Lib.Pipeline.Value

set_option maxRecDepth 16384

noncomputable section

namespace Cert.RoeArray

open Cert.KernelIdeal Cert.KernelIdeal.Gen Idealize.ShloMosaic Idealize.ShloMosaic.TcCoe Idealize.SL.Sem
open Idealize.ShloMosaic.Pipeline (Dat)
open Idealize.ShloMosaic.ValueIdx RowBlocks

variable (m : (ℓ : Loc nD τ sig) → Buf (Elt Ideal) ℓ) (ρ : Dev nD → PrngReg)

/-- Row `b` of block `t` is row `128·t + b` of the array. -/
def rowOf (t : Fin cfg0.N) : Fin 128 → Fin 4096 := fun b =>
  ⟨t.val * 128 + b.val, by have ht : t.val < 32 := t.isLt; have hb := b.isLt; omega⟩

/-- The printed index maps, decided over the 32 grid points: both windows' block index at point `t` is `(t, 0, 0)`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- WHAT POINT `t` WRITES BACK is block `t` of the reference's result, for any valuation of the reference's buffers
    whose argument is the kernel's argument array. -/
theorem flushed_eq (c : Dev nD) (V0 : Valuation Cert.ReferenceIdeal.τ Cert.ReferenceIdeal.sig (Elt Ideal))
    (hV : (V0 (Proc.devRef .tc Cert.ReferenceIdeal.main_arg0) : FVec Ideal S4096x3x4096 .f32)
      = m ((c : Thread nD τ).loc main_arg0)) (t : Fin cfg0.N) :
    (dats m 0 c).flushed 1 t = ((cfg0.win 1).blk t).view.read (Elt Ideal) (Cert.RoeRows.refOut V0) := by
  show (cfg0.win 1).cut (grid0.coords t) ((dats m 0 c).after 1 t) = _
  rw [after0_1]
  obtain ⟨e0, e1, e2, e3, e4, e5⟩ := idx_facts t
  have ht : t.val < 32 := t.isLt
  -- the block of the argument is the argument at the block's rows
  have hx : Restr (rowOf t) (iblk m c 0 t : FVec Ideal S128x3x4096 .f32)
      (V0 (Proc.devRef .tc Cert.ReferenceIdeal.main_arg0) : FVec Ideal Cert.ReferenceIdeal.S4096x3x4096 .f32) := by
    intro b k l
    show V m c main_arg0 (((cfg0.win 0).blk t).view.emb (ix3 b k l)) = (V0 (Proc.devRef .tc Cert.ReferenceIdeal.main_arg0) : FVec Ideal S4096x3x4096 .f32) (ix3 (rowOf t b) k l)
    rw [hV]
    show m ((c : Thread nD τ).loc main_arg0) _ = m ((c : Thread nD τ).loc main_arg0) _
    refine congrArg _ (funext fun a => Fin.ext ?_)
    match a with
    | ⟨0, _⟩ => show win0_0.index t (0 : Fin 3) * 128 + 1 * b.val = t.val * 128 + b.val; omega
    | ⟨1, _⟩ => show win0_0.index t (1 : Fin 3) * 3 + 1 * k.val = k.val; omega
    | ⟨2, _⟩ => show win0_0.index t (2 : Fin 3) * 4096 + 1 * l.val = l.val; omega
  funext j
  obtain ⟨b, k, l, rfl⟩ : ∃ (b : Fin 128) (k : Fin 3) (l : Fin 4096), j = ix3 b k l := ⟨j 0, j 1, j 2, eq_ix3 j⟩
  have hemb : ((cfg0.win 1).blk t).view.emb (ix3 b k l) = ix3 (rowOf t b) k l := by
    funext a; apply Fin.ext
    match a with
    | ⟨0, _⟩ => show win0_1.index t (0 : Fin 3) * 128 + 1 * b.val = t.val * 128 + b.val; omega
    | ⟨1, _⟩ => show win0_1.index t (1 : Fin 3) * 3 + 1 * k.val = k.val; omega
    | ⟨2, _⟩ => show win0_1.index t (2 : Fin 3) * 4096 + 1 * l.val = l.val; omega
  show out0_1 (iblk m c 0 t) (ix3 b k l) = Cert.RoeRows.refOut V0 (((cfg0.win 1).blk t).view.emb (ix3 b k l))
  rw [hemb]
  exact Cert.RoeRows.out_restr (f := rowOf t) (iblk m c 0 t) V0 hx b k l

/-- An index of the array is in point `t`'s block iff each coordinate is in the block's range on its axis. -/
theorem mem_blk (t : Fin cfg0.N) (i : S4096x3x4096.Idx) :
    i ∈ ((cfg0.win 1).blk t).view.set ↔ ∀ a : Fin 3, win0_1.index t a * S128x3x4096.size a ≤ (i a).val
      ∧ (i a).val < win0_1.index t a * S128x3x4096.size a + S128x3x4096.size a := by
  show i ∈ ((View.whole main_v0).slice (win0_1.rect t)).set ↔ _
  rw [View.set_slice_whole, Rect.mem_set_unit]
  exact Iff.rfl

/-- Every entry of the array is in the block of the point that holds its row: row `n` is in block `n / 128`. -/
theorem cover (i : S4096x3x4096.Idx) :
    ∃ t : Fin cfg0.N, (cfg0.win 1).flush t = true ∧ i ∈ ((cfg0.win 1).blk t).view.set := by
  have h0 : (i 0).val < 4096 := (i 0).isLt
  have h1 : (i 1).val < 3 := (i 1).isLt
  have h2 : (i 2).val < 4096 := (i 2).isLt
  have hq : (i 0).val / 128 < 32 := by omega
  refine ⟨⟨(i 0).val / 128, hq⟩, flush0_1 _, ?_⟩
  obtain ⟨e0, e1, e2, e3, e4, e5⟩ := idx_facts ⟨(i 0).val / 128, hq⟩
  have e3' : win0_1.index ⟨(i 0).val / 128, hq⟩ (0 : Fin 3) = (i 0).val / 128 := e3
  rw [mem_blk]
  intro a
  match a with
  | ⟨0, _⟩ =>
    show win0_1.index ⟨(i 0).val / 128, hq⟩ (0 : Fin 3) * 128 ≤ (i 0).val
      ∧ (i 0).val < win0_1.index ⟨(i 0).val / 128, hq⟩ (0 : Fin 3) * 128 + 128
    omega
  | ⟨1, _⟩ =>
    show win0_1.index ⟨(i 0).val / 128, hq⟩ (1 : Fin 3) * 3 ≤ (i 1).val
      ∧ (i 1).val < win0_1.index ⟨(i 0).val / 128, hq⟩ (1 : Fin 3) * 3 + 3
    omega
  | ⟨2, _⟩ =>
    show win0_1.index ⟨(i 0).val / 128, hq⟩ (2 : Fin 3) * 4096 ≤ (i 2).val
      ∧ (i 2).val < win0_1.index ⟨(i 0).val / 128, hq⟩ (2 : Fin 3) * 4096 + 4096
    omega

/-- THE ARRAY after the run is the reference's result of the same argument. -/
theorem final (c : Dev nD) (V0 : Valuation Cert.ReferenceIdeal.τ Cert.ReferenceIdeal.sig (Elt Ideal))
    (hV : (V0 (Proc.devRef .tc Cert.ReferenceIdeal.main_arg0) : FVec Ideal S4096x3x4096 .f32)
      = m ((c : Thread nD τ).loc main_arg0)) :
    (dats m 0 c).arrAt 1 cfg0.N = Cert.RoeRows.refOut V0 :=
  (dats m 0 c).arrAt_eq_of_cover 1 (Cert.RoeRows.refOut V0) (fun t _ => flushed_eq m c V0 hV t) cover

/-- The frame run with the result array named and the argument kept: the result is the proof data's array of
    output window 1 after the last point, and the argument, which input window 0 stages and never writes back, is
    as launched. -/
theorem run_blocks : θ_run defs (onTc (τ := τ) (main (F := Ideal))) ⟨m, fun _ => 0, ρ⟩ fun r => ∀ c : Dev nD,
      r.2.mem ((c : Thread nD τ).loc main_v0) = (dats m 0 c).arrAt 1 cfg0.N
      ∧ r.2.mem ((c : Thread nD τ).loc main_arg0) = m ((c : Thread nD τ).loc main_arg0) :=
  (θ_run defs _ _).mono (fun r h c => ⟨(h c).1 1,
      ((h c).1 0).trans (((dats m 0 c).arrAt_in 0 rfl _).trans ((A_eq m c 0).trans (V_main_arg0 m c)))⟩)
    (run_main m ρ)

end Cert.RoeArray

end
-- ==== Proof.lean ====
/-
  The claim: a one-dimensional Roe-type upwind flux on `u : [4096, 3, 4096]` (rows × the three conserved channels
  density, momentum, energy × cells along the last axis). Each cell's result is a fixed expression of the cell and of
  its left and right neighbours in its own row, the edge cells standing in for their missing neighbours. The kernel
  evaluates the expression on blocks of 128 rows, the reference on the whole array.

  * The three frames: the two kernel programs' are the generated frame runs; the reference's is its generated run
    with the result dropped.
  * `preserves`: the ideal pass rewrote nothing, so the conjunct is `True`.
  * `algebraic`: after the kernel's run the result array is, block by block, what each grid point wrote back
    (the generated frame's proof data), and point `t` writes back the reference's result at rows `128·t … 128·t + 127`
    (`Cert.RoeRows.out_restr`: every operation of the expression works row by row, so it commutes with taking a
    block of rows); the 32 blocks tile the rows (`Cert.RoeArray.final`). No law of the extended reals beyond
    `0 - x = -x` is used, so the precondition is never opened.
-/
import proofs.«102478_j8787503087637_1_alg».proof.Defs
import proofs.«102478_j8787503087637_1_alg».proof.Proof.Gen.Kernel
import proofs.«102478_j8787503087637_1_alg».proof.Proof.Gen.Kernel.Skeleton
import proofs.«102478_j8787503087637_1_alg».proof.Proof.Gen.Kernel.Launch
import proofs.«102478_j8787503087637_1_alg».proof.Proof.Gen.Kernel.Points
import proofs.«102478_j8787503087637_1_alg».proof.Proof.Gen.Kernel.Frame
import proofs.«102478_j8787503087637_1_alg».proof.Proof.Gen.KernelIdeal
import proofs.«102478_j8787503087637_1_alg».proof.Proof.Gen.KernelIdeal.Skeleton
import proofs.«102478_j8787503087637_1_alg».proof.Proof.Gen.KernelIdeal.Launch
import proofs.«102478_j8787503087637_1_alg».proof.Proof.Gen.KernelIdeal.Points
import proofs.«102478_j8787503087637_1_alg».proof.Proof.Gen.KernelIdeal.Frame
import proofs.«102478_j8787503087637_1_alg».proof.Proof.Gen.ReferenceIdeal
import proofs.«102478_j8787503087637_1_alg».proof.Proof.Gen.Pre_finite_inputs
import proofs.«102478_j8787503087637_1_alg».proof.Proof.Gen.ReferenceIdeal.Run
import proofs.«102478_j8787503087637_1_alg».proof.Proof.RoeArray
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the argument, both runs end with the reference's result of that argument: the
    reference by its run, the kernel because its blocks are the rows of that result. -/
theorem algebraic : Cert.algebraic_KernelIdeal_ReferenceIdeal := by
  intro m ρ m' ρ' _ hagree
  refine ⟨fun c => Cert.RoeRows.refOut (StableHlo.launchContents m' c), ?_, ?_⟩
  · exact (θ_run Cert.KernelIdeal.defs _ _).mono
      (fun r h c => ⟨(h c).1.trans (Cert.RoeArray.final m c (StableHlo.launchContents m' c) (hagree c)), (h c).2⟩)
      (Cert.RoeArray.run_blocks m ρ)
  · exact (θ_run Cert.ReferenceIdeal.defs _ _).mono (fun _ h c => ⟨(h c).1, (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
